-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S1x128 : Shape := ⟨2, ![1, 128]⟩
abbrev S400x10000 : Shape := ⟨2, ![400, 10000]⟩
abbrev S400x128 : Shape := ⟨2, ![400, 128]⟩

abbrev nBuf : Space → Nat
  | .hbm => 17
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S1x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S1x128, .f32⟩
  | .hbm, ⟨16, _⟩ => ⟨S10000x128, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x128, .f32⟩
  | .local _ .vmem, ⟨4, _⟩ => ⟨S1x128, .f32⟩
  | .local _ .vmem, ⟨5, _⟩ => ⟨S1x128, .f32⟩
  | .local _ .vmem, ⟨6, _⟩ => ⟨S400x128, .f32⟩
  | .local _ .vmem, ⟨7, _⟩ => ⟨S400x128, .f32⟩
  | .local _ .vmem, ⟨8, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S128 : S_.BroadcastsInDim S128 (![] : Fin 0 → Fin S128.rank)
  shapeCasts_S128_S1x128 : S128.ShapeCasts S1x128
  shapeCasts_S1x128_S128 : S1x128.ShapeCasts S128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S10000x128, .f32⟩
  | .hbm, ⟨18, _⟩ => ⟨S10000x128, .f32⟩
  | .hbm, ⟨19, _⟩ => ⟨S1x128, .f32⟩
  | .hbm, ⟨20, _⟩ => ⟨S10000x128, .f32⟩
  | .hbm, ⟨21, _⟩ => ⟨S10000x128, .f32⟩
  | .hbm, ⟨22, _⟩ => ⟨S1x128, .f32⟩
  | .hbm, ⟨23, _⟩ => ⟨S10000x128, .f32⟩
  | .hbm, ⟨24, _⟩ => ⟨S10000x128, .f32⟩
  | .hbm, ⟨25, _⟩ => ⟨S_, .f32⟩
  | .hbm, ⟨26, _⟩ => ⟨S10000x128, .f32⟩
  | .hbm, ⟨27, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.PointValue.lean ====
/-
  What one grid point of the graph-convolution kernel leaves behind, as values.

  The kernel keeps the product `x · W` (the "support", 10000 × 128) in a buffer that lives across the 25 grid
  points. At the first point the body computes the support from the whole `x` and `W`, stores it, and reads it
  back; at every later point it only reads what is already there. At every point it then multiplies the point's 400
  rows of `adj` by the support, scales each column, adds a column shift, clamps at zero, and stores the 400 × 128
  block.

  Three facts, for any float instance:
    * at the first point the support buffer ends holding the matrix-product payload of `x` and `W`;
    * at the first point the output block is the epilogue payload applied to that freshly stored support;
    * at a later point the output block is the same epilogue payload applied to whatever the buffer held on entry.
  Each is the read-back of a single store that covers its whole buffer, whose loads read whole buffers.
-/
import proofs.«109843_g53609781789055_cont_9to1_m_1331_7_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.PointValue

open Cert.KernelIdeal Cert.KernelIdeal.Gen

variable {F : FTy → Type} [FloatOps F]

/-- The offsets of a whole-buffer access are all zero. -/
theorem hz : (![0, 0] : Fin 2 → Nat) = fun _ => 0 := funext fun a => by fin_cases a <;> rfl

/-- A LATER POINT's output block: the epilogue of the point's rows of `adj` against the support `s` found in the
    carried buffer, with the column scale `x3` and the column shift `x4`. -/
theorem block_later (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S400x128 .f32) (harg6 : arg6.IsWhole) (arg7 : Memref sig .tc .vmem S10000x128 .bf16) (harg7 : arg7.IsWhole) (hc0 : ¬cond0_0 i)
    (x0 : Vec F S10000x128 .f32) (x1 : Vec F S400x10000 .f32) (x2 : Vec F S128x128 .f32) (x3 : Vec F S1x128 .f32) (x4 : Vec F S1x128 .f32) (s : Vec F S10000x128 .bf16) :
    out0_B_5 c i arg1 harg1 arg2 harg2 arg3 harg3 arg4 harg4 arg5 harg5 arg6 harg6 arg7 harg7 hc0 x0 x1 x2 x3 x4 s = k0_pay2 x1 s x3 x4 := by
  unfold out0_B_5
  rw [View.read_writes_eq_canon _ _ _ (cover0_B_5 c i arg1 harg1 arg2 harg2 arg3 harg3 arg4 harg4 arg5 harg5 arg6 harg6 arg7 harg7 hc0 x0 x1 x2 x3 x4 s)]
  unfold kernelRun0_B
  dsimp only
  rw [View.canon_unit_zero hz]
  simp only [View.readAt_eq_ld, harg2.read_unread, harg7.read_unread, harg4.read_unread, harg5.read_unread,
    View.ld_unit_zero (S := S400x10000) hz, View.ld_unit_zero (S := S10000x128) hz, View.ld_unit_zero (S := S1x128) hz]

/-- THE FIRST POINT's support: the carried buffer ends holding the matrix product of the whole `x` (`x0`) and `W` (`x2`). -/
theorem support_first (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S400x128 .f32) (harg6 : arg6.IsWhole) (arg7 : Memref sig .tc .vmem S10000x128 .bf16) (harg7 : arg7.IsWhole) (hc0 : cond0_0 i)
    (x0 : Vec F S10000x128 .f32) (x1 : Vec F S400x10000 .f32) (x2 : Vec F S128x128 .f32) (x3 : Vec F S1x128 .f32) (x4 : Vec F S1x128 .f32) :
    sout0_A_0 c i arg1 harg1 arg2 harg2 arg3 harg3 arg4 harg4 arg5 harg5 arg6 harg6 arg7 harg7 hc0 x0 x1 x2 x3 x4 = k0_pay1 x0 x2 := by
  unfold sout0_A_0
  rw [View.read_writes_eq_canon _ _ _ (scover0_A_0 c i arg1 harg1 arg2 harg2 arg3 harg3 arg4 harg4 arg5 harg5 arg6 harg6 arg7 harg7 hc0 x0 x1 x2 x3 x4)]
  unfold kernelRun0_A
  dsimp only
  sl_unfold_words
  rw [View.canon_unit_zero (S := S10000x128) hz]
  simp only [View.readAt_eq_ld, harg1.read_unread, harg3.read_unread,
    View.ld_unit_zero (S := S10000x128) hz, View.ld_unit_zero (S := S128x128) hz]

/-- THE FIRST POINT's output block: the same epilogue, against the support it has just stored and read back. -/
theorem block_first (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S400x128 .f32) (harg6 : arg6.IsWhole) (arg7 : Memref sig .tc .vmem S10000x128 .bf16) (harg7 : arg7.IsWhole) (hc0 : cond0_0 i)
    (x0 : Vec F S10000x128 .f32) (x1 : Vec F S400x10000 .f32) (x2 : Vec F S128x128 .f32) (x3 : Vec F S1x128 .f32) (x4 : Vec F S1x128 .f32) :
    out0_A_5 c i arg1 harg1 arg2 harg2 arg3 harg3 arg4 harg4 arg5 harg5 arg6 harg6 arg7 harg7 hc0 x0 x1 x2 x3 x4 = k0_pay2 x1 (k0_pay1 x0 x2) x3 x4 := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  unfold kernelRun0_A
  dsimp only
  sl_unfold_words
  rw [View.canon_unit_zero hz, View.readCov_unit_zero (S := S10000x128) _ hz]
  simp only [View.readAt_eq_ld, harg1.read_unread, harg2.read_unread, harg3.read_unread, harg4.read_unread, harg5.read_unread,
    View.ld_unit_zero (S := S400x10000) hz, View.ld_unit_zero (S := S10000x128) hz, View.ld_unit_zero (S := S128x128) hz, View.ld_unit_zero (S := S1x128) hz]

end Cert.KernelIdeal.PointValue

end
-- ==== Proof.Grid.lean ====
/-
  The facts that hold across the whole grid of the graph-convolution kernel, for any float instance.

  Four of the five inputs are staged whole and never move: at every grid point the kernel sees all of `x`
  (10000 × 128), all of `W` (128 × 128), the one-row column scale and the one-row column shift. Only `adj` moves:
  point `t` sees its rows 400·t … 400·t + 399, and writes rows 400·t … 400·t + 399 of the result.

  Hence the support `x · W` that the first point stores in the carried buffer is a function of the whole arrays
  alone, no later point changes it (induction on the point), and EVERY point's output block is one and the same
  epilogue of its rows of `adj` against that one support.
-/
import proofs.«109843_g53609781789055_cont_9to1_m_1331_7_alg».proof.Proof.PointValue

set_option maxRecDepth 16384

noncomputable section

open Idealize.ShloMosaic Idealize.ShloMosaic.TcCoe Idealize.SL.Sem
open Idealize.ShloMosaic.Pipeline (Dat)

namespace Cert.KernelIdeal.Grid

open Cert.KernelIdeal Cert.KernelIdeal.Gen Cert.KernelIdeal.PointValue

variable {F : FTy → Type} [FloatOps F]
variable (m : (ℓ : Loc nD τ sig) → Buf (Elt F) ℓ)

/-- Where each window's block sits at grid point `t`: the four resident inputs at block (0, 0); `adj` and the
    result at block (t, 0). Decided over the 25 points. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- At every point the kernel sees the whole `x`. -/
theorem whole_x (c : Dev nD) (t : Fin cfg0.N) : (iblk m c 0 t : Vec F S10000x128 .f32) = V m c main_arg0 := by
  have e := idx_facts t
  funext j
  show V m c main_arg0 (((cfg0.win 0).blk t).view.emb j) = V m c main_arg0 j
  refine congrArg (V m c main_arg0) ?_
  funext a; apply Fin.ext
  match a with
  | ⟨0, _⟩ => show win0_0.index t (0 : Fin 2) * 10000 + 1 * (j 0).val = (j 0).val; omega
  | ⟨1, _⟩ => show win0_0.index t (1 : Fin 2) * 128 + 1 * (j 1).val = (j 1).val; omega

/-- At every point the kernel sees the whole `W`. -/
theorem whole_w (c : Dev nD) (t : Fin cfg0.N) : (iblk m c 2 t : Vec F S128x128 .f32) = V m c main_arg2 := by
  have e := idx_facts t
  funext j
  show V m c main_arg2 (((cfg0.win 2).blk t).view.emb j) = V m c main_arg2 j
  refine congrArg (V m c main_arg2) ?_
  funext a; apply Fin.ext
  match a with
  | ⟨0, _⟩ => show win0_2.index t (0 : Fin 2) * 128 + 1 * (j 0).val = (j 0).val; omega
  | ⟨1, _⟩ => show win0_2.index t (1 : Fin 2) * 128 + 1 * (j 1).val = (j 1).val; omega

/-- At every point the kernel sees the whole one-row column scale. -/
theorem whole_scale (c : Dev nD) (t : Fin cfg0.N) : (iblk m c 3 t : Vec F S1x128 .f32) = V m c main_v4 := by
  have e := idx_facts t
  funext j
  show V m c main_v4 (((cfg0.win 3).blk t).view.emb j) = V m c main_v4 j
  refine congrArg (V m c main_v4) ?_
  funext a; apply Fin.ext
  match a with
  | ⟨0, _⟩ => show win0_3.index t (0 : Fin 2) * 1 + 1 * (j 0).val = (j 0).val; omega
  | ⟨1, _⟩ => show win0_3.index t (1 : Fin 2) * 128 + 1 * (j 1).val = (j 1).val; omega

/-- At every point the kernel sees the whole one-row column shift. -/
theorem whole_shift (c : Dev nD) (t : Fin cfg0.N) : (iblk m c 4 t : Vec F S1x128 .f32) = V m c main_v8 := by
  have e := idx_facts t
  funext j
  show V m c main_v8 (((cfg0.win 4).blk t).view.emb j) = V m c main_v8 j
  refine congrArg (V m c main_v8) ?_
  funext a; apply Fin.ext
  match a with
  | ⟨0, _⟩ => show win0_4.index t (0 : Fin 2) * 1 + 1 * (j 0).val = (j 0).val; omega
  | ⟨1, _⟩ => show win0_4.index t (1 : Fin 2) * 128 + 1 * (j 1).val = (j 1).val; omega

/-- THE SUPPORT: the matrix product `x · W` as the first point computes it, of the whole arrays. -/
def support (c : Dev nD) : Vec F S10000x128 .bf16 := k0_pay1 (V m c main_arg0) (V m c main_arg2)

/-- The carried buffer holds the support after EVERY point: the first point stores it, a later point leaves the
    buffer as it found it. -/
theorem support_kept (c : Dev nD) : ∀ (n : ℕ) (h : n < cfg0.N), (outsAt0 m c n h).2 = support m c
  | 0, h => by
    rw [outsAt0_A m c ⟨0, h⟩ rfl]
    dsimp only
    refine (support_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩)).trans ?_
    unfold support
    rw [whole_x m c ⟨0, h⟩, whole_w m c ⟨0, h⟩]
  | n + 1, h => by
    have hN : cfg0.N = 25 := N_0
    have hB : ¬(⟨n + 1, h⟩ : Fin cfg0.N).val % 25 = 0 := by dsimp only; omega
    rw [outsAt0_B m c ⟨n + 1, h⟩ hB]
    show (outsAt0 m c n _).2 = support m c
    exact support_kept c n _

/-- EVERY point's output block: the epilogue of the point's rows of `adj` against the one support, with the whole
    column scale and column shift. -/
theorem block_at (c : Dev nD) (t : Fin cfg0.N) :
    (outsAt0 m c t.val t.isLt).1 = k0_pay2 (iblk m c 1 t) (support m c) (V m c main_v4) (V m c main_v8) := by
  by_cases h0 : t.val % 25 = 0
  · rw [outsAt0_A m c t h0]
    dsimp only
    refine (block_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)).trans ?_
    unfold support
    rw [whole_x m c t, whole_w m c t, whole_scale m c t, whole_shift m c t]
  · rw [outsAt0_B m c t h0]
    dsimp only
    refine (block_later c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2).trans ?_
    rw [support_kept m c (t.val - 1) _, whole_scale m c t, whole_shift m c t]

end Cert.KernelIdeal.Grid

end
-- ==== Proof.Entry.lean ====
/-
  The two computations of the graph-convolution kernel's body, read entry by entry over the extended reals.

  Over the extended reals a change of float format is the identity and a matrix product into a zero accumulator
  is the plain sum of products over the contracted index. So:
    * the support the first point stores has, at (k, q), the entry `∑ₗ x(k, l) · W(l, q)`, l over 128;
    * a point's output block has, at (p, q), the entry
        `max ((∑ₖ a(p, k) · s(k, q)) · scale(0, q) + shift(0, q)) 0`, k over 10000,
      of its 400 rows `a` of `adj`, the support `s`, and the one-row column scale and shift.
-/
import proofs.«109843_g53609781789055_cont_9to1_m_1331_7_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Entry

open Cert.KernelIdeal Cert.KernelIdeal.Gen

/-! ## Where a product of two matrices reads its operands: row of the left, column of the right -/

theorem supp_lhs0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem supp_lhs1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem supp_rhs0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem supp_rhs1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

theorem agg_lhs0 (i : S400x128.Idx) (q : dot_S400x10000_S10000x128_S400x128_1_0_0_1_n_n.contr.Idx) : (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem agg_lhs1 (i : S400x128.Idx) (q : dot_S400x10000_S10000x128_S400x128_1_0_0_1_n_n.contr.Idx) : (dot_S400x10000_S10000x128_S400x128_1_0_0_1_n_n.lhsIdx i q 1).val = (q ⟨0, by decide⟩).val :=
  dot_S400x10000_S10000x128_S400x128_1_0_0_1_n_n.lhsIdx_val_of_single rfl i q
theorem agg_rhs0 (i : S400x128.Idx) (q : dot_S400x10000_S10000x128_S400x128_1_0_0_1_n_n.contr.Idx) : (dot_S400x10000_S10000x128_S400x128_1_0_0_1_n_n.rhsIdx i q 0).val = (q ⟨0, by decide⟩).val :=
  dot_S400x10000_S10000x128_S400x128_1_0_0_1_n_n.rhsIdx_val_of_single rfl i q
theorem agg_rhs1 (i : S400x128.Idx) (q : dot_S400x10000_S10000x128_S400x128_1_0_0_1_n_n.contr.Idx) : (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The support at (k, q): the sum over the 128 inner indices of `x(k, l) · W(l, q)`. -/
theorem support_apply (x0 : FVec Ideal S10000x128 .f32) (x2 : FVec Ideal S128x128 .f32) (k : Fin 10000) (q : Fin 128) :
    k0_pay1 (F := Ideal) x0 x2 (ix2 k q) = ∑ l : Fin 128, x0 (ix2 k l) * x2 (ix2 l q) := by
  unfold k0_pay1
  refine (congrFun (shapeCast_self _ _) (ix2 k q)).trans ?_
  show FloatOps.matmul (φ₁ := .f32) (φ₂ := .f32) dot_S10000x128_S128x128_S10000x128_1_0_0_1_n_n none x0 x2 (constant (F := Ideal) S10000x128 .f32 0x00000000#32) (ix2 k q) = _
  refine (Ideal.matmul_constant_zero_apply dot_S10000x128_S128x128_S10000x128_1_0_0_1_n_n none x0 x2 (ix2 k q)).trans ?_
  rw [← Equiv.sum_comp (ValueIdx.contrEquiv1 dot_S10000x128_S128x128_S10000x128_1_0_0_1_n_n 128 rfl rfl).symm]
  refine Finset.sum_congr rfl fun l _ => ?_
  have hk := ValueIdx.contrEquiv1_symm_val dot_S10000x128_S128x128_S10000x128_1_0_0_1_n_n 128 rfl rfl l
  have el : dot_S10000x128_S128x128_S10000x128_1_0_0_1_n_n.lhsIdx (ix2 k q) ((ValueIdx.contrEquiv1 dot_S10000x128_S128x128_S10000x128_1_0_0_1_n_n 128 rfl rfl).symm l) = ix2 k l := funext fun a => Fin.ext (by
    match a with
    | ⟨0, _⟩ => exact supp_lhs0 _ _
    | ⟨1, _⟩ => exact (supp_lhs1 _ _).trans hk)
  have er : dot_S10000x128_S128x128_S10000x128_1_0_0_1_n_n.rhsIdx (ix2 k q) ((ValueIdx.contrEquiv1 dot_S10000x128_S128x128_S10000x128_1_0_0_1_n_n 128 rfl rfl).symm l) = ix2 l q := funext fun a => Fin.ext (by
    match a with
    | ⟨0, _⟩ => exact (supp_rhs0 _ _).trans hk
    | ⟨1, _⟩ => exact supp_rhs1 _ _)
  rw [el, er]

/-- The aggregate of a block of 400 rows `a` against a support `s`, at (p, q): the sum over the 10000 nodes. -/
theorem aggregate_apply {φ₁ φ₂ : FTy} (a : FVec Ideal S400x10000 φ₁) (s : FVec Ideal S10000x128 φ₂) (p : Fin 400) (q : Fin 128) :
    FloatOps.matmul dot_S400x10000_S10000x128_S400x128_1_0_0_1_n_n none a s (constant (F := Ideal) S400x128 .f32 0x00000000#32) (ix2 p q)
      = ∑ k : Fin 10000, a (ix2 p k) * s (ix2 k q) := by
  refine (Ideal.matmul_constant_zero_apply dot_S400x10000_S10000x128_S400x128_1_0_0_1_n_n none a s (ix2 p q)).trans ?_
  rw [← Equiv.sum_comp (ValueIdx.contrEquiv1 dot_S400x10000_S10000x128_S400x128_1_0_0_1_n_n 10000 rfl rfl).symm]
  refine Finset.sum_congr rfl fun k _ => ?_
  have hk := ValueIdx.contrEquiv1_symm_val dot_S400x10000_S10000x128_S400x128_1_0_0_1_n_n 10000 rfl rfl k
  have el : dot_S400x10000_S10000x128_S400x128_1_0_0_1_n_n.lhsIdx (ix2 p q) ((ValueIdx.contrEquiv1 dot_S400x10000_S10000x128_S400x128_1_0_0_1_n_n 10000 rfl rfl).symm k) = ix2 p k := funext fun a => Fin.ext (by
    match a with
    | ⟨0, _⟩ => exact agg_lhs0 _ _
    | ⟨1, _⟩ => exact (agg_lhs1 _ _).trans hk)
  have er : dot_S400x10000_S10000x128_S400x128_1_0_0_1_n_n.rhsIdx (ix2 p q) ((ValueIdx.contrEquiv1 dot_S400x10000_S10000x128_S400x128_1_0_0_1_n_n 10000 rfl rfl).symm k) = ix2 k q := funext fun a => Fin.ext (by
    match a with
    | ⟨0, _⟩ => exact (agg_rhs0 _ _).trans hk
    | ⟨1, _⟩ => exact agg_rhs1 _ _)
  rw [el, er]

/-- A one-row array broadcast down 400 rows reads its one row. -/
theorem row_apply (v : FVec Ideal S1x128 .f32) (p : Fin 400) (q : Fin 128) :
    broadcastTo S400x128 (shapeCast S1x128 v shapeCasts_S1x128_S1x128) broadcasts_S1x128_S400x128 (ix2 p q) = v (ix2 (0 : Fin 1) q) := by
  rw [shapeCast_self]
  exact broadcastTo_1b_ab_apply v _ p q

/-- A point's output block at (p, q). -/
theorem epilogue_apply (a : FVec Ideal S400x10000 .f32) (s : FVec Ideal S10000x128 .bf16) (scale shift : FVec Ideal S1x128 .f32)
    (p : Fin 400) (q : Fin 128) :
    k0_pay2 (F := Ideal) a s scale shift (ix2 p q)
      = max ((∑ k : Fin 10000, a (ix2 p k) * s (ix2 k q)) * scale (ix2 (0 : Fin 1) q) + shift (ix2 (0 : Fin 1) q))
          (Ideal.ofBits .f32 0x00000000#32) := by
  unfold k0_pay2
  show max (FloatOps.matmul (φ₁ := .bf16) (φ₂ := .bf16) dot_S400x10000_S10000x128_S400x128_1_0_0_1_n_n none (truncf .bf16 a bitsLt_bf16_f32) s (constant (F := Ideal) S400x128 .f32 0x00000000#32) (ix2 p q)
        * broadcastTo S400x128 (shapeCast S1x128 scale shapeCasts_S1x128_S1x128) broadcasts_S1x128_S400x128 (ix2 p q)
        + broadcastTo S400x128 (shapeCast S1x128 shift shapeCasts_S1x128_S1x128) broadcasts_S1x128_S400x128 (ix2 p q))
      (Ideal.ofBits .f32 0x00000000#32) = _
  rw [aggregate_apply, row_apply, row_apply]
  rfl

end Cert.KernelIdeal.Entry

end
-- ==== Proof.GcnLaw.lean ====
/-
  The graph-convolution layer as ONE function of its six arrays, and the law that joins its two arrangements.

  With `P(r, q) = ∑ₖ adj(r, k) · ∑ₗ x(k, l) · W(l, q)` and `n = √1.00001` (the square root of the f32 nearest to
  1.00001, taken exactly), one arrangement folds the bias and the normalization into a column scale and a
  column shift,
        max (P · (γ / n) + (b · (γ / n) + β)) 0,
  and the other applies them in order,
        max (((P + b) − 0) / n · γ + β) 0.
  Over the real numbers the two agree by distributivity. Over the extended reals distributivity fails at the
  infinities, so the law is stated for arrays whose every entry is a real number; `n` itself is a nonzero real.
-/
import Idealize.ShloMosaic.PureOps.Ideal
import Idealize.ShloMosaic.PureOps.Ideal.Laws
import Idealize.ShloMosaic.Lib.ValueIdx

noncomputable section

namespace Cert.GcnLaw

open Idealize.ShloMosaic Idealize.ShloMosaic.ValueIdx

abbrev SX : Shape := ⟨2, ![10000, 128]⟩
abbrev SA : Shape := ⟨2, ![10000, 10000]⟩
abbrev SW : Shape := ⟨2, ![128, 128]⟩
abbrev SV : Shape := ⟨1, ![128]⟩

/-- The f32 nearest to 1.00001 is 8388692 / 2²³. -/
theorem lit_eq : Ideal.ofBits .f32 0x3F800054#32 = ((8388692 / 8388608 : ℝ) : EReal) := by
  simp [Ideal.ofBits, Ideal.ieee, -EReal.coe_mul]; norm_num

/-- THE NORMALIZER `n`: the exact square root of that number. -/
def normalizer : EReal := Ideal.sqrt (Ideal.ofBits .f32 0x3F800054#32)

/-- It is a nonzero real. -/
theorem normalizer_real : ∃ r : ℝ, r ≠ 0 ∧ normalizer = (r : EReal) := by
  refine ⟨Real.sqrt (8388692 / 8388608), Real.sqrt_ne_zero'.mpr (by norm_num), ?_⟩
  unfold normalizer
  rw [lit_eq, Ideal.sqrt_coe, if_neg (by norm_num)]

/-- One entry of the support `x · W`. -/
def supp (x : SX.Idx → EReal) (W : SW.Idx → EReal) (k : Fin 10000) (q : Fin 128) : EReal :=
  ∑ l : Fin 128, x (ix2 k l) * W (ix2 l q)

/-- One entry of the aggregate `adj · (x · W)`. -/
def agg (x : SX.Idx → EReal) (adj : SA.Idx → EReal) (W : SW.Idx → EReal) (r : Fin 10000) (q : Fin 128) : EReal :=
  ∑ k : Fin 10000, adj (ix2 r k) * supp x W k q

/-- One entry of the layer with the bias and the normalization FOLDED into a column scale and a column shift. -/
def entry (x : SX.Idx → EReal) (adj : SA.Idx → EReal) (W : SW.Idx → EReal) (b g β : SV.Idx → EReal)
    (r : Fin 10000) (q : Fin 128) : EReal :=
  max (agg x adj W r q * Ideal.div (g (ix1 q)) normalizer + (b (ix1 q) * Ideal.div (g (ix1 q)) normalizer + β (ix1 q)))
    (Ideal.ofBits .f32 0x00000000#32)

/-- One entry of the layer with the bias, the centring, the normalization, the gain and the offset applied IN ORDER. -/
def entryInOrder (x : SX.Idx → EReal) (adj : SA.Idx → EReal) (W : SW.Idx → EReal) (b g β : SV.Idx → EReal)
    (r : Fin 10000) (q : Fin 128) : EReal :=
  max (Ideal.div ((agg x adj W r q + b (ix1 q)) - Ideal.ofBits .f32 0x00000000#32) normalizer * g (ix1 q) + β (ix1 q))
    (Ideal.ofBits .f32 0x00000000#32)

/-- THE LAYER: the folded arrangement at every index of the 10000 × 128 result. -/
def layer (x : SX.Idx → EReal) (adj : SA.Idx → EReal) (W : SW.Idx → EReal) (b g β : SV.Idx → EReal) : SX.Idx → EReal :=
  fun i => entry x adj W b g β ⟨(i 0).val, (i 0).isLt⟩ ⟨(i 1).val, (i 1).isLt⟩

/-- A finite sum of real numbers, read in the extended reals, is the sum of the terms read there. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The aggregate of real arrays is a real number. -/
theorem agg_real (x' : SX.Idx → ℝ) (adj' : SA.Idx → ℝ) (W' : SW.Idx → ℝ) (r : Fin 10000) (q : Fin 128) :
    agg (fun i => (x' i : EReal)) (fun i => (adj' i : EReal)) (fun i => (W' i : EReal)) r q
      = ((∑ k : Fin 10000, adj' (ix2 r k) * ∑ l : Fin 128, x' (ix2 k l) * W' (ix2 l q) : ℝ) : EReal) := by
  unfold agg supp
  rw [coe_sum]
  refine Finset.sum_congr rfl fun k _ => ?_
  rw [EReal.coe_mul, coe_sum]
  refine congrArg _ (Finset.sum_congr rfl fun l _ => ?_)
  rw [EReal.coe_mul]

/-- THE LAW: on arrays of real numbers the folded arrangement and the in-order arrangement are one number. -/
theorem entry_eq_entryInOrder (x : SX.Idx → EReal) (adj : SA.Idx → EReal) (W : SW.Idx → EReal) (b g β : SV.Idx → EReal)
    (hx : ∀ i, ∃ r : ℝ, x i = (r : EReal)) (hadj : ∀ i, ∃ r : ℝ, adj i = (r : EReal)) (hW : ∀ i, ∃ r : ℝ, W i = (r : EReal))
    (hb : ∀ i, ∃ r : ℝ, b i = (r : EReal)) (hg : ∀ i, ∃ r : ℝ, g i = (r : EReal)) (hβ : ∀ i, ∃ r : ℝ, β i = (r : EReal))
    (r : Fin 10000) (q : Fin 128) :
    entry x adj W b g β r q = entryInOrder x adj W b g β r q := by
  choose x' hx' using hx
  choose adj' hadj' using hadj
  choose W' hW' using hW
  choose b' hb' using hb
  choose g' hg' using hg
  choose β' hβ' using hβ
  obtain rfl : x = fun i => (x' i : EReal) := funext hx'
  obtain rfl : adj = fun i => (adj' i : EReal) := funext hadj'
  obtain rfl : W = fun i => (W' i : EReal) := funext hW'
  obtain rfl : b = fun i => (b' i : EReal) := funext hb'
  obtain rfl : g = fun i => (g' i : EReal) := funext hg'
  obtain rfl : β = fun i => (β' i : EReal) := funext hβ'
  obtain ⟨c, hc, hn⟩ := normalizer_real
  unfold entry entryInOrder
  rw [agg_real, hn, Ideal.ofBits_zero_f32, Ideal.div_coe hc, Ideal.div_coe hc]
  refine congrArg (fun t => max t (0 : EReal)) ?_
  beta_reduce
  generalize (∑ k : Fin 10000, adj' (ix2 r k) * ∑ l : Fin 128, x' (ix2 k l) * W' (ix2 l q)) = P
  have h : P * (g' (ix1 q) * (1 / c)) + (b' (ix1 q) * (g' (ix1 q) * (1 / c)) + β' (ix1 q))
      = (P + b' (ix1 q) - 0) * (1 / c) * g' (ix1 q) + β' (ix1 q) := by ring
  exact_mod_cast congrArg (fun t : ℝ => (t : EReal)) h

end Cert.GcnLaw

end
-- ==== Proof.HostFold.lean ====
/-
  The column scale and the column shift that the graph-convolution kernel's host code prepares, entry by entry.

  Before the grid starts, the host folds the bias `b`, the gain `γ`, the offset `β` and the normalizer
  `n = √1.00001` into two one-row arrays: the scale `γ / n` and the shift `b · (γ / n) + β`. Read at column `q`
  over the extended reals (reshapes between [128] and [1, 128] keep the column; the scalar `n` is broadcast):
      scale(0, q) = γ(q) / n,      shift(0, q) = b(q) · (γ(q) / n) + β(q).
-/
import proofs.«109843_g53609781789055_cont_9to1_m_1331_7_alg».proof.Proof.Gen.KernelIdeal.Frame
import proofs.«109843_g53609781789055_cont_9to1_m_1331_7_alg».proof.Proof.GcnLaw
import Idealize.ShloMosaic.Lib.StableHlo.Run
import Idealize.ShloMosaic.Lib.ValueIdx
import Idealize.ShloMosaic.Lib.ValueLayout

noncomputable section

open Idealize.ShloMosaic Idealize.ShloMosaic.TcCoe Idealize.SL.Sem Idealize.ShloMosaic.ValueIdx Idealize.ShloMosaic.StableHlo

namespace Cert.KernelIdeal.HostFold

open Cert.KernelIdeal Cert.KernelIdeal.Gen

variable (m : (ℓ : Loc nD τ sig) → Buf (Elt Ideal) ℓ)

/-- The six argument arrays on core `c`, as arrays of extended reals: `x`, `adj`, `W`, the bias `b`, the gain `γ`, the
    offset `β`. -/
abbrev argX (c : Dev nD) : S10000x128.Idx → EReal := m ((c : Thread nD τ).loc main_arg0)
abbrev argAdj (c : Dev nD) : S10000x10000.Idx → EReal := m ((c : Thread nD τ).loc main_arg1)
abbrev argW (c : Dev nD) : S128x128.Idx → EReal := m ((c : Thread nD τ).loc main_arg2)
abbrev argB (c : Dev nD) : S128.Idx → EReal := m ((c : Thread nD τ).loc main_arg3)
abbrev argG (c : Dev nD) : S128.Idx → EReal := m ((c : Thread nD τ).loc main_arg4)
abbrev argBeta (c : Dev nD) : S128.Idx → EReal := m ((c : Thread nD τ).loc main_arg5)

/-- The scale, as the grid finds it: `γ` divided by the broadcast normalizer, viewed as one row. -/
theorem scale_eq (c : Dev nD) :
    (V m c main_v4 : S1x128.Idx → EReal) = shapeCast S1x128 (Host.divf (m ((c : Thread nD τ).loc main_arg4)) (broadcastInDim S128 ![] bcast_S_S128 (id (Host.sqrt (constant (F := Ideal) S_ .f32 0x3F800054#32))))) shapeCasts_S128_S1x128 := by
  dsimp only [Gen.V, Gen.hostOps0]
  after_results
  rfl

/-- The shift, as the grid finds it: `b` times the scale (viewed flat again) plus `β`, viewed as one row. -/
theorem shift_eq (c : Dev nD) :
    (V m c main_v8 : S1x128.Idx → EReal)
      = shapeCast S1x128 (addf (mulf (m ((c : Thread nD τ).loc main_arg3)) (shapeCast S128 (shapeCast S1x128 (Host.divf (m ((c : Thread nD τ).loc main_arg4)) (broadcastInDim S128 ![] bcast_S_S128 (id (Host.sqrt (constant (F := Ideal) S_ .f32 0x3F800054#32))))) shapeCasts_S128_S1x128) shapeCasts_S1x128_S128))
          (m ((c : Thread nD τ).loc main_arg5))) shapeCasts_S128_S1x128 := by
  dsimp only [Gen.V, Gen.hostOps0]
  after_results
  rfl

/-- The broadcast normalizer at any column is the normalizer. -/
theorem normalizer_apply (q : Fin 128) :
    broadcastInDim S128 ![] bcast_S_S128 (id (Host.sqrt (constant (F := Ideal) S_ .f32 0x3F800054#32))) (ix1 q) = Cert.GcnLaw.normalizer := by
  rw [broadcastInDim_apply _ bcast_S_S128 _ (ix1 q) ix0 (fun a => a.elim0)]
  rfl

/-- The scale at column `q` is `γ(q) / n`. -/
theorem scale_apply (c : Dev nD) (q : Fin 128) :
    (V m c main_v4 : S1x128.Idx → EReal) (ix2 (0 : Fin 1) q)
      = Ideal.div (argG m c (ix1 q)) Cert.GcnLaw.normalizer := by
  rw [scale_eq]
  refine (shapeCast_a_1a_apply _ shapeCasts_S128_S1x128 (0 : Fin 1) q).trans ?_
  show Ideal.div (argG m c (ix1 q)) (broadcastInDim S128 ![] bcast_S_S128 (id (Host.sqrt (constant (F := Ideal) S_ .f32 0x3F800054#32))) (ix1 q)) = _
  rw [normalizer_apply]

/-- The shift at column `q` is `b(q) · (γ(q) / n) + β(q)`. -/
theorem shift_apply (c : Dev nD) (q : Fin 128) :
    (V m c main_v8 : S1x128.Idx → EReal) (ix2 (0 : Fin 1) q)
      = argB m c (ix1 q) * Ideal.div (argG m c (ix1 q)) Cert.GcnLaw.normalizer + argBeta m c (ix1 q) := by
  rw [shift_eq]
  refine (shapeCast_a_1a_apply _ shapeCasts_S128_S1x128 (0 : Fin 1) q).trans ?_
  show argB m c (ix1 q) * shapeCast S128 (shapeCast S1x128 (Host.divf (m ((c : Thread nD τ).loc main_arg4)) (broadcastInDim S128 ![] bcast_S_S128 (id (Host.sqrt (constant (F := Ideal) S_ .f32 0x3F800054#32))))) shapeCasts_S128_S1x128) shapeCasts_S1x128_S128 (ix1 q)
      + argBeta m c (ix1 q) = _
  rw [shapeCast_1a_a_apply, ← scale_eq, scale_apply]

end Cert.KernelIdeal.HostFold

end
-- ==== Proof.Whole.lean ====
/-
  The graph-convolution kernel's result array, after its 25 grid points, as ONE function of the six argument arrays.

  Point `t` writes back rows 400·t … 400·t + 399. What it writes at row p of its block, column q, is the epilogue of
  row 400·t + p of `adj` against the support `x · W`, with the host's column scale `γ / n` and shift
  `b · (γ / n) + β`: exactly the folded arrangement of the layer at (400·t + p, q). Row r lies in the block of point
  r / 400, so the 25 blocks cover the array, and the array ends holding the layer everywhere.
-/
import proofs.«109843_g53609781789055_cont_9to1_m_1331_7_alg».proof.Proof.Grid
import proofs.«109843_g53609781789055_cont_9to1_m_1331_7_alg».proof.Proof.Entry
import proofs.«109843_g53609781789055_cont_9to1_m_1331_7_alg».proof.Proof.HostFold
import proofs.«109843_g53609781789055_cont_9to1_m_1331_7_alg».proof.Proof.Gen.KernelIdeal.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.HostFold

variable (m : (ℓ : Loc nD τ sig) → Buf (Elt Ideal) ℓ) (ρ : Dev nD → PrngReg)

/-- THE RESULT: the layer of core `c`'s six argument arrays. -/
abbrev result (c : Dev nD) : S10000x128.Idx → EReal :=
  Cert.GcnLaw.layer (argX m c) (argAdj m c) (argW m c) (argB m c) (argG m c) (argBeta m c)

/-- The carried support at (k, q) is the support entry of the argument arrays `x` and `W`. -/
theorem support_entry (c : Dev nD) (k : Fin 10000) (q : Fin 128) :
    Grid.support m c (ix2 k q) = Cert.GcnLaw.supp (argX m c) (argW m c) k q := by
  unfold Grid.support
  rw [Entry.support_apply, V_main_arg0, V_main_arg2]
  rfl

/-- A block of 400 rows `A` that is rows r0 … r0 + 399 of `adj`, run through the epilogue against the carried support
    and the host's scale and shift, has at its index `y` the layer's entry at row r0 + y₀, column y₁. -/
theorem block_entry (c : Dev nD) (A : FVec Ideal S400x10000 .f32) (r0 : ℕ) (hr0 : r0 + 400 ≤ 10000)
    (hA : ∀ (p : Fin 400) (k : Fin 10000), A (ix2 p k) = argAdj m c (ix2 (⟨r0 + p.val, by have := p.isLt; omega⟩ : Fin 10000) k))
    (y : S400x128.Idx) (r : Fin 10000) (q : Fin 128) (hr : r.val = r0 + (y 0).val) (hq : q.val = (y 1).val) :
    k0_pay2 (F := Ideal) A (Grid.support m c) (V m c main_v4) (V m c main_v8) y
      = Cert.GcnLaw.entry (argX m c) (argAdj m c) (argW m c) (argB m c) (argG m c) (argBeta m c) r q := by
  obtain ⟨p, q', rfl⟩ : ∃ (p : Fin 400) (q' : Fin 128), y = ix2 p q' := ⟨y 0, y 1, eq_ix2 y⟩
  obtain rfl : r = ⟨r0 + p.val, Nat.lt_of_lt_of_le (Nat.add_lt_add_left p.isLt r0) hr0⟩ := Fin.ext hr
  obtain rfl : q = q' := Fin.ext hq
  rw [Entry.epilogue_apply, HostFold.scale_apply, HostFold.shift_apply]
  have hsum : (∑ k : Fin 10000, A (ix2 p k) * Grid.support m c (ix2 k q))
      = ∑ k : Fin 10000, argAdj m c (ix2 (⟨r0 + p.val, Nat.lt_of_lt_of_le (Nat.add_lt_add_left p.isLt r0) hr0⟩ : Fin 10000) k) * Cert.GcnLaw.supp (argX m c) (argW m c) k q :=
    Finset.sum_congr rfl fun k _ => by rw [hA p k, support_entry]
  rw [hsum]
  rfl

/-- WHAT POINT `t` WRITES BACK is block `t` of the result. -/
theorem flushed_eq (c : Dev nD) (t : Fin cfg0.N) :
    (dats m 0 c).flushed 5 t = ((cfg0.win 5).blk t).view.read (Elt Ideal) (result m c) := by
  rw [Value.flushed5, Grid.block_at]
  obtain ⟨-, -, e10, e11, -, -, -, -, -, -, e50, e51⟩ := Grid.idx_facts t
  have hN : t.val < 25 := lt_of_lt_of_eq t.isLt N_0
  funext j
  have hj0 : (j 0).val < 400 := (j 0).isLt
  have hj1 : (j 1).val < 128 := (j 1).isLt
  show k0_pay2 (F := Ideal) (iblk m c 1 t) (Grid.support m c) (V m c main_v4) (V m c main_v8) j
      = Cert.GcnLaw.layer (argX m c) (argAdj m c) (argW m c) (argB m c) (argG m c) (argBeta m c) (((cfg0.win 5).blk t).view.emb j)
  unfold Cert.GcnLaw.layer
  refine block_entry m c (iblk m c 1 t) (400 * t.val) (by omega) (fun p k => ?_) j _ _ ?_ ?_
  · show V m c main_arg1 (((cfg0.win 1).blk t).view.emb (ix2 p k)) = m ((c : Thread nD τ).loc main_arg1) (ix2 (⟨400 * t.val + p.val, by have := p.isLt; omega⟩ : Fin 10000) k)
    rw [V_main_arg1]
    refine congrArg (m ((c : Thread nD τ).loc main_arg1)) ?_
    funext a; apply Fin.ext
    match a with
    | ⟨0, _⟩ => show win0_1.index t (0 : Fin 2) * 400 + 1 * p.val = 400 * t.val + p.val; omega
    | ⟨1, _⟩ => show win0_1.index t (1 : Fin 2) * 10000 + 1 * k.val = k.val; omega
  · show win0_5.index t (0 : Fin 2) * 400 + 1 * (j 0).val = 400 * t.val + (j 0).val; omega
  · show win0_5.index t (1 : Fin 2) * 128 + 1 * (j 1).val = (j 1).val; omega

/-- An index of the array is in point `t`'s block iff each coordinate is in the block's range on its axis. -/
theorem mem_blk (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_v9).slice (win0_5.rect t)).set ↔ _
  rw [View.set_slice_whole, Rect.mem_set_unit]
  exact Iff.rfl

/-- Row r is written back by point r / 400: the blocks cover the array. -/
theorem covered (i : S10000x128.Idx) : ∃ t : Fin cfg0.N, (cfg0.win 5).flush t = true ∧ i ∈ ((cfg0.win 5).blk t).view.set := by
  have hi0 : (i 0).val < 10000 := (i 0).isLt
  have hi1 : (i 1).val < 128 := (i 1).isLt
  have hN : cfg0.N = 25 := N_0
  obtain ⟨t, ht⟩ : ∃ t : Fin cfg0.N, t.val = (i 0).val / 400 := ⟨⟨(i 0).val / 400, by omega⟩, rfl⟩
  obtain ⟨-, -, -, -, -, -, -, -, -, -, e50, e51⟩ := Grid.idx_facts t
  refine ⟨t, flush0_5 t, ?_⟩
  rw [mem_blk]
  intro a
  match a with
  | ⟨0, _⟩ => show win0_5.index t (0 : Fin 2) * 400 ≤ (i 0).val ∧ (i 0).val < win0_5.index t (0 : Fin 2) * 400 + 400; omega
  | ⟨1, _⟩ => show win0_5.index t (1 : Fin 2) * 128 ≤ (i 1).val ∧ (i 1).val < win0_5.index t (1 : Fin 2) * 128 + 128; omega

/-- THE ARRAY after the run is the layer of the argument arrays. -/
theorem final (c : Dev nD) : (dats m 0 c).arrAt 5 cfg0.N = result m c :=
  (dats m 0 c).arrAt_eq_of_cover 5 (result m c) (fun t _ => flushed_eq m c t) covered

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.InOrder.lean ====
/-
  The reference program's result, entry by entry: the graph-convolution layer with its steps IN ORDER.

  The reference multiplies `x` by `W`, multiplies `adj` by that, adds the bias row, subtracts the (zero) running
  mean, divides by `n = √1.00001`, multiplies by the gain row, adds the offset row and clamps at zero. Over the
  extended reals a host matrix product is the plain sum of products and a row broadcast reads its column, so the
  result at (r, q) is `max (((P(r, q) + b(q)) − 0) / n · γ(q) + β(q)) 0` with `P = adj · (x · W)`. On arrays of real
  numbers this is the layer with the bias and the normalization folded into a scale and a shift.
-/
import proofs.«109843_g53609781789055_cont_9to1_m_1331_7_alg».proof.Proof.Gen.ReferenceIdeal.Read
import proofs.«109843_g53609781789055_cont_9to1_m_1331_7_alg».proof.Proof.GcnLaw

noncomputable section

open Idealize.ShloMosaic Idealize.ShloMosaic.ValueIdx

namespace Cert.ReferenceIdeal.InOrder

open Cert.ReferenceIdeal Cert.ReferenceIdeal.Read

/-! ## Where each stage reads its operands -/

theorem adj_at (i : S10000x128.Idx) (k : Fin 10000) : lidx_main_v1 i k = ix2 (⟨(i 0).val, (i 0).isLt⟩ : Fin 10000) k :=
  funext fun a => Fin.ext (by match a with | ⟨0, _⟩ => rfl | ⟨1, _⟩ => rfl)
theorem supp_at (i : S10000x128.Idx) (k : Fin 10000) : ridx_main_v1 i k = ix2 k (⟨(i 1).val, (i 1).isLt⟩ : Fin 128) :=
  funext fun a => Fin.ext (by match a with | ⟨0, _⟩ => rfl | ⟨1, _⟩ => rfl)
theorem x_at (k : Fin 10000) (q l : Fin 128) : lidx_main_v0 (ix2 k q) l = ix2 k l :=
  funext fun a => Fin.ext (by match a with | ⟨0, _⟩ => rfl | ⟨1, _⟩ => rfl)
theorem w_at (k : Fin 10000) (q l : Fin 128) : ridx_main_v0 (ix2 k q) l = ix2 l q :=
  funext fun a => Fin.ext (by match a with | ⟨0, _⟩ => rfl | ⟨1, _⟩ => rfl)
theorem bias_at (i : S10000x128.Idx) : idx_main_v2 (idx_main_v3 i) = ix1 (⟨(i 1).val, (i 1).isLt⟩ : Fin 128) :=
  funext fun a => Fin.ext (by match a with | ⟨0, _⟩ => rfl)
theorem gain_at (i : S10000x128.Idx) : idx_main_v11 (idx_main_v12 i) = ix1 (⟨(i 1).val, (i 1).isLt⟩ : Fin 128) :=
  funext fun a => Fin.ext (by match a with | ⟨0, _⟩ => rfl)
theorem offset_at (i : S10000x128.Idx) : idx_main_v14 (idx_main_v15 i) = ix1 (⟨(i 1).val, (i 1).isLt⟩ : Fin 128) :=
  funext fun a => Fin.ext (by match a with | ⟨0, _⟩ => rfl)

/-- The reference's result at index `i` is the in-order arrangement at row i₀, column i₁. -/
theorem result_apply (x0 : (⟨S10000x128, .f32⟩ : BufTy).Contents (Elt Ideal)) (x1 : (⟨S10000x10000, .f32⟩ : BufTy).Contents (Elt Ideal)) (x2 : (⟨S128x128, .f32⟩ : BufTy).Contents (Elt Ideal))
    (x3 x4 x5 : (⟨S128, .f32⟩ : BufTy).Contents (Elt Ideal)) (i : S10000x128.Idx) :
    val_main_v18 (F := Ideal) x0 x1 x2 x3 x4 x5 i
      = Cert.GcnLaw.entryInOrder x0 x1 x2 x3 x4 x5 ⟨(i 0).val, (i 0).isLt⟩ ⟨(i 1).val, (i 1).isLt⟩ := by
  rw [val_main_v18_apply, val_main_v17_apply, val_main_cst_1_apply, val_main_v16_apply, val_main_v15_apply, val_main_v14_apply,
    val_main_v13_apply, val_main_v12_apply, val_main_v11_apply, val_main_v10_apply, val_main_v9_apply, val_main_v8_apply,
    val_main_v7_apply, val_main_cst_0_apply, val_main_v6_apply, val_main_v5_apply, val_main_cst_apply, val_main_v4_apply,
    val_main_v3_apply, val_main_v2_apply, val_main_v1_apply]
  simp only [adj_at, supp_at, val_main_v0_apply, x_at, w_at, bias_at, gain_at, offset_at,
    Ideal.maximumf_def, Ideal.addf_def, Ideal.mulf_def, Ideal.subf_def, Ideal.hostDivf_def, Ideal.hostUnary_sqrt_def, Ideal.ofBits_def]
  rfl

/-- On arrays of real numbers the reference's result is the layer. -/
theorem result_eq_layer (x0 : (⟨S10000x128, .f32⟩ : BufTy).Contents (Elt Ideal)) (x1 : (⟨S10000x10000, .f32⟩ : BufTy).Contents (Elt Ideal)) (x2 : (⟨S128x128, .f32⟩ : BufTy).Contents (Elt Ideal))
    (x3 x4 x5 : (⟨S128, .f32⟩ : BufTy).Contents (Elt Ideal))
    (h0 : ∀ i, ∃ r : ℝ, x0 i = (r : EReal)) (h1 : ∀ i, ∃ r : ℝ, x1 i = (r : EReal)) (h2 : ∀ i, ∃ r : ℝ, x2 i = (r : EReal))
    (h3 : ∀ i, ∃ r : ℝ, x3 i = (r : EReal)) (h4 : ∀ i, ∃ r : ℝ, x4 i = (r : EReal)) (h5 : ∀ i, ∃ r : ℝ, x5 i = (r : EReal)) :
    val_main_v18 (F := Ideal) x0 x1 x2 x3 x4 x5 = Cert.GcnLaw.layer x0 x1 x2 x3 x4 x5 := by
  funext i
  rw [result_apply]
  exact (Cert.GcnLaw.entry_eq_entryInOrder x0 x1 x2 x3 x4 x5 h0 h1 h2 h3 h4 h5 _ _).symm

end Cert.ReferenceIdeal.InOrder

end
-- ==== Proof.Finite.lean ====
/-
  What the precondition says: every entry of every argument array is a real number.

  The precondition tests, for each of the six arrays, that every entry's absolute value is below +∞, and joins
  the six tests by `and`. Over the extended reals the absolute value of `x` is `max x (−x)`, which is +∞ exactly at
  the two infinities; so an entry that passes the test is neither of them, that is, a real number.
-/
import proofs.«109843_g53609781789055_cont_9to1_m_1331_7_alg».proof.Pre_finite_inputs
import Idealize.ShloMosaic.Lib.ReduceAll
import Idealize.ShloMosaic.Lib.ValueIdx
import Idealize.ShloMosaic.PureOps.Ideal

noncomputable section

open Idealize.ShloMosaic

namespace Cert.Pre_finite_inputs.Finite

open Cert.Pre_finite_inputs

variable [Cert.Pre_finite_inputs.Facts]

/-- A rank-0 array has one index. -/
instance : Subsingleton S_.Idx := ⟨fun a b => funext fun d => d.elim0⟩

/-- The f32 pattern of +∞ denotes +∞. -/
theorem inf_eq : Ideal.ofBits .f32 0x7F800000#32 = ⊤ := by simp [Ideal.ofBits, Ideal.ieee]

/-- An extended real whose absolute value is below +∞ is a real number. -/
theorem real_of_abs_lt (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have h' : Ideal.cmp .olt (max x (-x)) (Ideal.ofBits .f32 0x7F800000#32) = 1#1 := h
  rw [inf_eq] at h'
  induction x using EReal.rec with
  | bot => exfalso; simp [Ideal.cmp] at h'
  | top => exfalso; simp [Ideal.cmp] at h'
  | coe r => exact ⟨r, rfl⟩

/-- If the six tests all pass, every entry of each of the six arrays is a real number. -/
theorem reals_of_finite (a0 : FVec Ideal S10000x128 .f32) (a1 : FVec Ideal S10000x10000 .f32) (a2 : FVec Ideal S128x128 .f32)
    (a3 a4 a5 : FVec Ideal S128 .f32) (h : fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have h0 := congrFun h ValueIdx.ix0
  dsimp only [fn, fn_part1, andi] at h0
  obtain ⟨h4, e5⟩ := IntOp.andi_eq_one.1 h0
  obtain ⟨h3, e4⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  exact ⟨fun i => real_of_abs_lt _ (Host.reduce_andi_all _ _ _ _ _ e0 i),
    fun i => real_of_abs_lt _ (Host.reduce_andi_all _ _ _ _ _ e1 i),
    fun i => real_of_abs_lt _ (Host.reduce_andi_all _ _ _ _ _ e2 i),
    fun i => real_of_abs_lt _ (Host.reduce_andi_all _ _ _ _ _ e3 i),
    fun i => real_of_abs_lt _ (Host.reduce_andi_all _ _ _ _ _ e4 i),
    fun i => real_of_abs_lt _ (Host.reduce_andi_all _ _ _ _ _ e5 i)⟩

end Cert.Pre_finite_inputs.Finite

end
-- ==== Proof.lean ====
/-
  A graph-convolution layer, `relu (batchnorm (adj · (x · W) + b))` with the normalization in inference mode
  (running mean 0, running variance 1, so a division by `n = √1.00001`), computed two ways.

  The kernel walks the 10000 rows of `adj` in 25 blocks of 400. At the first block it computes the support
  `x · W` once and keeps it; for every block it multiplies the block's rows of `adj` by the kept support and applies
  one fused epilogue `max (P · (γ / n) + (b · (γ / n) + β)) 0`, the column scale `γ / n` and shift `b · (γ / n) + β`
  prepared beforehand. The reference applies the steps in order: `max (((P + b) − 0) / n · γ + β) 0`.

  Over the extended reals, roundings are the identity and a matrix product is the plain sum of products, so both
  programs compute from the same `P = adj · (x · W)`; the two epilogues agree by distributivity, which holds because
  the precondition makes every input entry a real number and `n` is a nonzero real.

    * Proof/PointValue — what one grid point leaves in the kept buffer and in its output block;
    * Proof/Grid       — the resident inputs are whole at every point; the kept support never changes; every block is
                          one epilogue of its rows of `adj` against that support;
    * Proof/Entry      — the support and the epilogue read entry by entry;
    * Proof/HostFold   — the column scale and shift read entry by entry;
    * Proof/Whole      — the 25 blocks cover the result array, which is the layer of the arguments;
    * Proof/InOrder    — the reference's result is the in-order arrangement, and on real arrays the layer;
    * Proof/GcnLaw     — the layer, its two arrangements, and the law between them;
    * Proof/Finite     — the precondition makes every input entry a real number.
  The kernel's idealization rewrote nothing, so it is trivially the kernel's sanctioned idealization.
-/
import proofs.«109843_g53609781789055_cont_9to1_m_1331_7_alg».proof.Defs
import proofs.«109843_g53609781789055_cont_9to1_m_1331_7_alg».proof.Proof.Gen.Kernel
import proofs.«109843_g53609781789055_cont_9to1_m_1331_7_alg».proof.Proof.Gen.Kernel.Skeleton
import proofs.«109843_g53609781789055_cont_9to1_m_1331_7_alg».proof.Proof.Gen.Kernel.Launch
import proofs.«109843_g53609781789055_cont_9to1_m_1331_7_alg».proof.Proof.Gen.Kernel.Points
import proofs.«109843_g53609781789055_cont_9to1_m_1331_7_alg».proof.Proof.Gen.Kernel.Frame
import proofs.«109843_g53609781789055_cont_9to1_m_1331_7_alg».proof.Proof.Gen.KernelIdeal
import proofs.«109843_g53609781789055_cont_9to1_m_1331_7_alg».proof.Proof.Gen.KernelIdeal.Skeleton
import proofs.«109843_g53609781789055_cont_9to1_m_1331_7_alg».proof.Proof.Gen.KernelIdeal.Launch
import proofs.«109843_g53609781789055_cont_9to1_m_1331_7_alg».proof.Proof.Gen.KernelIdeal.Points
import proofs.«109843_g53609781789055_cont_9to1_m_1331_7_alg».proof.Proof.Gen.KernelIdeal.Frame
import proofs.«109843_g53609781789055_cont_9to1_m_1331_7_alg».proof.Proof.Gen.ReferenceIdeal
import proofs.«109843_g53609781789055_cont_9to1_m_1331_7_alg».proof.Proof.Gen.Pre_finite_inputs
import proofs.«109843_g53609781789055_cont_9to1_m_1331_7_alg».proof.Proof.Gen.KernelIdeal.Value
import proofs.«109843_g53609781789055_cont_9to1_m_1331_7_alg».proof.Proof.Gen.ReferenceIdeal.Run
import proofs.«109843_g53609781789055_cont_9to1_m_1331_7_alg».proof.Proof.Gen.ReferenceIdeal.Read
import proofs.«109843_g53609781789055_cont_9to1_m_1331_7_alg».proof.Proof.Whole
import proofs.«109843_g53609781789055_cont_9to1_m_1331_7_alg».proof.Proof.InOrder
import proofs.«109843_g53609781789055_cont_9to1_m_1331_7_alg».proof.Proof.Finite
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From memories that agree on the six arguments, all of whose entries are real numbers, the kernel's result array
    and the reference's both end at the layer of the arguments. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := Cert.Pre_finite_inputs.Finite.reals_of_finite _ _ _ _ _ _ (hpre c)
  rw [Cert.ReferenceIdeal.Read.val_main_v18_eq, (hagree c).1, (hagree c).2.1, (hagree c).2.2.1, (hagree c).2.2.2.1,
    (hagree c).2.2.2.2.1, (hagree c).2.2.2.2.2]
  exact Cert.ReferenceIdeal.InOrder.result_eq_layer _ _ _ _ _ _ h0 h1 h2 h3 h4 h5

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
